-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S128x64 : Shape := ⟨2, ![128, 64]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg8 : FVec F S3x128 .f32) (main_arg9 : FVec F S3x128x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg9
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  main_v43

def fn_part1 {F : FTy → Type} [FloatOps F] (main_arg5 : FVec F S128x64 .f32) (main_arg6 : FVec F S128 .f32) (main_arg7 : FVec F S3x128x128 .f32) (main_arg8 : FVec F S3x128 .f32) (main_arg9 : FVec F S3x128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : FVec F S50000x64 .f32) (main_arg2 : IVec S2x1600000 32) (main_arg3 : FVec F S128x64 .f32) (main_arg4 : FVec F S128 .f32) (main_arg5 : FVec F S128x64 .f32) (main_arg6 : FVec F S128 .f32) (main_arg7 : FVec F S3x128x128 .f32) (main_arg8 : FVec F S3x128 .f32) (main_arg9 : FVec F S3x128x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x1600000 : Shape := ⟨2, ![2, 1600000]⟩
abbrev S128x64 : Shape := ⟨2, ![128, 64]⟩
abbrev S128 : Shape := ⟨1, ![128]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S64x128 : Shape := ⟨2, ![64, 128]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩

abbrev nBuf : Space → Nat
  | .hbm => 109
  | .vmem => 39
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S2x1600000, .i32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S128, .f32⟩
  | .hbm, ⟨7, _⟩ => ⟨S3x128x128, .f32⟩
  | .hbm, ⟨8, _⟩ => ⟨S3x128, .f32⟩
  | .hbm, ⟨9, _⟩ => ⟨S3x128x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S64x128, .f32⟩
  | .hbm, ⟨15, _⟩ => ⟨S64x128, .f32⟩
  | .hbm, ⟨16, _⟩ => ⟨S1x128, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S100000x128, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128x128, .f32⟩
  | .hbm, ⟨50, _⟩ => ⟨S128x128, .f32⟩
  | .hbm, ⟨51, _⟩ => ⟨S128x128, .f32⟩
  | .hbm, ⟨52, _⟩ => ⟨S1x128x128, .f32⟩
  | .hbm, ⟨53, _⟩ => ⟨S128x128, .f32⟩
  | .hbm, ⟨54, _⟩ => ⟨S128x128, .f32⟩
  | .hbm, ⟨55, _⟩ => ⟨S1x128, .f32⟩
  | .hbm, ⟨56, _⟩ => ⟨S128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128x128, .f32⟩
  | .hbm, ⟨75, _⟩ => ⟨S128x128, .f32⟩
  | .hbm, ⟨76, _⟩ => ⟨S128x128, .f32⟩
  | .hbm, ⟨77, _⟩ => ⟨S1x128x128, .f32⟩
  | .hbm, ⟨78, _⟩ => ⟨S128x128, .f32⟩
  | .hbm, ⟨79, _⟩ => ⟨S128x128, .f32⟩
  | .hbm, ⟨80, _⟩ => ⟨S1x128, .f32⟩
  | .hbm, ⟨81, _⟩ => ⟨S128, .f32⟩
  | .hbm, ⟨82, _⟩ => ⟨S1x128, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S1x128x128, .f32⟩
  | .hbm, ⟨100, _⟩ => ⟨S128x128, .f32⟩
  | .hbm, ⟨101, _⟩ => ⟨S128x128, .f32⟩
  | .hbm, ⟨102, _⟩ => ⟨S1x128x128, .f32⟩
  | .hbm, ⟨103, _⟩ => ⟨S128x128, .f32⟩
  | .hbm, ⟨104, _⟩ => ⟨S128x128, .f32⟩
  | .hbm, ⟨105, _⟩ => ⟨S1x128, .f32⟩
  | .hbm, ⟨106, _⟩ => ⟨S128, .f32⟩
  | .hbm, ⟨107, _⟩ => ⟨S1x128, .f32⟩
  | .hbm, ⟨108, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x64, .f32⟩
  | .local _ .vmem, ⟨7, _⟩ => ⟨S5000x64, .f32⟩
  | .local _ .vmem, ⟨8, _⟩ => ⟨S64x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_5 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_8 : Ref sig .tc := ⟨.hbm, 84, rfl⟩
abbrev main_v64 : Ref sig .tc := ⟨.hbm, 85, rfl⟩
abbrev main_v65 : Ref sig .tc := ⟨.hbm, 86, rfl⟩
abbrev main_c_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_10 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem5_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x64_S64x128_1_0 : S128x64.Transposes [1, 0] S64x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  concatenates_S50000x128_S50000x128_S100000x128_d0 : Shape.Concatenates [S50000x128, S50000x128] S100000x128 0
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S5000x64_S64x128_S5000x128_1_0_0_1_n_n_wf : DotDims.WF S5000x64 S64x128 S5000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v75) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v78) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v85) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S128x64 : Shape := ⟨2, ![128, 64]⟩
abbrev S128 : Shape := ⟨1, ![128]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S64x128 : Shape := ⟨2, ![64, 128]⟩
abbrev S50000x128 : Shape := ⟨2, ![50000, 128]⟩
abbrev S1x128 : Shape := ⟨2, ![1, 128]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩

abbrev nBuf : Space → Nat
  | .hbm => 131
  | .vmem => 0
  | .smem => 0
  | _ => 0

abbrev hbmTy0_0 (i : Nat) : BufTy := match i % 128 with
  | 0 => ⟨S50000x64, .f32⟩
  | 1 => ⟨S50000x64, .f32⟩
  | 2 => ⟨S2x1600000, .i32⟩
  | 3 => ⟨S128x64, .f32⟩
  | 4 => ⟨S128, .f32⟩
  | 5 => ⟨S128x64, .f32⟩
  | 6 => ⟨S128, .f32⟩
  | 7 => ⟨S3x128x128, .f32⟩
  | 8 => ⟨S3x128, .f32⟩
  | 9 => ⟨S3x128x128, .f32⟩
  | 10 => ⟨S1x1600000, .i32⟩
  | 11 => ⟨S1600000, .i32⟩
  | 12 => ⟨S1x1600000, .i32⟩
  | 13 => ⟨S1600000, .i32⟩
  | 14 => ⟨S64x128, .f32⟩
  | 15 => ⟨S50000x128, .f32⟩
  | 16 => ⟨S1x128, .f32⟩
  | 17 => ⟨S50000x128, .f32⟩
  | 18 => ⟨S50000x128, .f32⟩
  | 19 => ⟨S64x128, .f32⟩
  | 20 => ⟨S50000x128, .f32⟩
  | 21 => ⟨S1x128, .f32⟩
  | 22 => ⟨S50000x128, .f32⟩
  | 23 => ⟨S50000x128, .f32⟩
  | 24 => ⟨S100000x128, .f32⟩
  | 25 => ⟨S_, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S100000x128, .f32⟩
  | 52 => ⟨S100000x128, .f32⟩
  | 53 => ⟨S1x128x128, .f32⟩
  | 54 => ⟨S128x128, .f32⟩
  | 55 => ⟨S128x128, .f32⟩
  | 56 => ⟨S100000x128, .f32⟩
  | 57 => ⟨S1x128, .f32⟩
  | 58 => ⟨S128, .f32⟩
  | 59 => ⟨S1x128, .f32⟩
  | 60 => ⟨S100000x128, .f32⟩
  | 61 => ⟨S100000x128, .f32⟩
  | 62 => ⟨S1x128x128, .f32⟩
  | 63 => ⟨S128x128, .f32⟩
  | 64 => ⟨S128x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S100000x128, .f32⟩
  | 84 => ⟨S100000x128, .f32⟩
  | 85 => ⟨S1x128x128, .f32⟩
  | 86 => ⟨S128x128, .f32⟩
  | 87 => ⟨S128x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S1x128x128, .f32⟩
  | 95 => ⟨S128x128, .f32⟩
  | 96 => ⟨S128x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000x128, .f32⟩
  | 116 => ⟨S100000x128, .f32⟩
  | 117 => ⟨S1x128x128, .f32⟩
  | 118 => ⟨S128x128, .f32⟩
  | 119 => ⟨S128x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S1x128x128, .f32⟩
  | 127 => ⟨S128x128, .f32⟩
  | _ => ⟨S50000x64, .f32⟩

abbrev hbmTy0_1 (i : Nat) : BufTy := match i % 128 with
  | 0 => ⟨S128x128, .f32⟩
  | 1 => ⟨S100000x128, .f32⟩
  | 2 => ⟨S100000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call0_cst : Ref sig .tc := ⟨.hbm, 67, rfl⟩
abbrev main_call0_v0 : Ref sig .tc := ⟨.hbm, 68, rfl⟩
abbrev main_v50 : Ref sig .tc := ⟨.hbm, 69, rfl⟩
abbrev main_c_5 : Ref sig .tc := ⟨.hbm, 70, rfl⟩
abbrev main_v51 : Ref sig .tc := ⟨.hbm, 71, rfl⟩
abbrev main_v52 : Ref sig .tc := ⟨.hbm, 72, rfl⟩
abbrev main_c_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_call1_cst : Ref sig .tc := ⟨.hbm, 99, rfl⟩
abbrev main_call1_v0 : Ref sig .tc := ⟨.hbm, 100, rfl⟩
abbrev main_v77 : Ref sig .tc := ⟨.hbm, 101, rfl⟩
abbrev main_c_8 : Ref sig .tc := ⟨.hbm, 102, rfl⟩
abbrev main_v78 : Ref sig .tc := ⟨.hbm, 103, rfl⟩
abbrev main_v79 : Ref sig .tc := ⟨.hbm, 104, rfl⟩
abbrev main_c_9 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_10 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S100000x128_d0 : Shape.Concatenates [S50000x128, S50000x128] S100000x128 0
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S50000x64_S64x128_S50000x128_1_0_0_1_n_n_wf : DotDims.WF S50000x64 S64x128 S50000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  The program is five pipelined regions among stretches of host operations; the contents of the TensorCore's
  buffers at each boundary are a fold from the launch memory: a stretch applies its operations, a region leaves each
  of its output arrays at what its write-backs assemble and every other buffer as it found it.  Every weakly fair
  execution terminates without a fault, and in its final state every unscoped buffer holds the last boundary's
  contents.  Read at the result buffer this names the kernel's result; read at the arguments, which no stretch and
  no region writes, it gives them back as launched.
-/
import proofs.«175582_j73856257622347_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting, with the result buffer at the
    last boundary's contents and each argument as launched. -/
theorem run_main : θ_run defs (onTc (τ := τ) (main (F := F))) ⟨m, fun _ => 0, ρ⟩ (fun r => ∀ c : Dev nD,
      r.2.mem ((c.tc : Thread nD τ).loc main_v85) = W10 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v85 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Run

end
-- ==== Proof.LibDenseEntries.lean ====
/-
  The two dense maps of the network, entry by entry over the extended reals.

  `affine x w b` is the input projection: entry (r, c) is the sum over k of x(r, k) · w(k, c), plus the bias row's
  entry (0, c).  `combine a h wl wr b` is one layer's dense step: entry (r, c) is the neighbour term
  (sum over k of a(r, k) · wl(k, c)) plus the bias b(0, c), plus the root term (sum over k of h(r, k) · wr(k, c)),
  the additions grouped in that order.  `combineRelu` is the same entry clipped below at zero.
  Only sums and products of extended reals occur, so no finiteness is needed anywhere these are used.
-/
import Idealize.ShloMosaic.Lib.ValueIdx
import Idealize.ShloMosaic.PureOps.Ideal

noncomputable section

namespace Cert.Entries

open Idealize.ShloMosaic Idealize.ShloMosaic.ValueIdx

variable {M K N : ℕ}

/-- The inner product of row `r` of `x` with column `c` of `w`. -/
def rowCol (x : (⟨2, ![M, K]⟩ : Shape).Idx → EReal) (w : (⟨2, ![K, N]⟩ : Shape).Idx → EReal) (r : Fin M) (c : Fin N) : EReal :=
  ∑ k : Fin K, x (ix2 r k) * w (ix2 k c)

/-- `x · w` plus the bias row, entry by entry. -/
def affine (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => rowCol x w (i 0) (i 1) + b (ix2 (0 : Fin 1) (i 1))

/-- `(a · wl + b) + h · wr`, entry by entry. -/
def combine (a h : (⟨2, ![M, K]⟩ : Shape).Idx → EReal) (wl wr : (⟨2, ![K, N]⟩ : Shape).Idx → EReal)
    (b : (⟨2, ![1, N]⟩ : Shape).Idx → EReal) : (⟨2, ![M, N]⟩ : Shape).Idx → EReal :=
  fun i => (rowCol a wl (i 0) (i 1) + b (ix2 (0 : Fin 1) (i 1))) + rowCol h wr (i 0) (i 1)

/-- The same entry clipped below at the zero word's value. -/
def combineRelu (a h : (⟨2, ![M, K]⟩ : Shape).Idx → EReal) (wl wr : (⟨2, ![K, N]⟩ : Shape).Idx → EReal)
    (b : (⟨2, ![1, N]⟩ : Shape).Idx → EReal) : (⟨2, ![M, N]⟩ : Shape).Idx → EReal :=
  fun i => max (combine a h wl wr b i) (Ideal.ofBits .f32 0x00000000#32)

theorem affine_ix2 (x : (⟨2, ![M, K]⟩ : Shape).Idx → EReal) (w : (⟨2, ![K, N]⟩ : Shape).Idx → EReal)
    (b : (⟨2, ![1, N]⟩ : Shape).Idx → EReal) (r : Fin M) (c : Fin N) :
    affine x w b (ix2 r c) = rowCol x w r c + b (ix2 (0 : Fin 1) c) := rfl

theorem combine_ix2 (a h : (⟨2, ![M, K]⟩ : Shape).Idx → EReal) (wl wr : (⟨2, ![K, N]⟩ : Shape).Idx → EReal)
    (b : (⟨2, ![1, N]⟩ : Shape).Idx → EReal) (r : Fin M) (c : Fin N) :
    combine a h wl wr b (ix2 r c) = (rowCol a wl r c + b (ix2 (0 : Fin 1) c)) + rowCol h wr r c := rfl

theorem combineRelu_ix2 (a h : (⟨2, ![M, K]⟩ : Shape).Idx → EReal) (wl wr : (⟨2, ![K, N]⟩ : Shape).Idx → EReal)
    (b : (⟨2, ![1, N]⟩ : Shape).Idx → EReal) (r : Fin M) (c : Fin N) :
    combineRelu a h wl wr b (ix2 r c)
      = max ((rowCol a wl r c + b (ix2 (0 : Fin 1) c)) + rowCol h wr r c) (Ideal.ofBits .f32 0x00000000#32) := rfl

/-! ## An entry from a tile's loads

A tile's body sees `m` rows of the left operands and the whole right operands.  If row `p` of what it loaded is row
`i 0` of the array, column `q` of the loaded weights is column `i 1`, and the loaded bias at `q` is the bias at
`i 1`, then what the body computes at `(p, q)` is the whole-array map's entry `i`. -/

variable {m : ℕ}

theorem rowCol_of_rows (X : (⟨2, ![M, K]⟩ : Shape).Idx → EReal) (W : (⟨2, ![K, N]⟩ : Shape).Idx → EReal)
    (x : (⟨2, ![m, K]⟩ : Shape).Idx → EReal) (w : (⟨2, ![K, N]⟩ : Shape).Idx → EReal)
    (r : Fin M) (c : Fin N) (p : Fin m) (q : Fin N)
    (hx : ∀ k : Fin K, x (ix2 p k) = X (ix2 r k)) (hw : ∀ k : Fin K, w (ix2 k q) = W (ix2 k c)) :
    rowCol x w p q = rowCol X W r c :=
  Finset.sum_congr rfl fun k _ => by rw [hx k, hw k]

theorem affine_of_rows (X : (⟨2, ![M, K]⟩ : Shape).Idx → EReal) (W : (⟨2, ![K, N]⟩ : Shape).Idx → EReal)
    (B : (⟨2, ![1, N]⟩ : Shape).Idx → EReal)
    (x : (⟨2, ![m, K]⟩ : Shape).Idx → EReal) (w : (⟨2, ![K, N]⟩ : Shape).Idx → EReal) (b : (⟨2, ![1, N]⟩ : Shape).Idx → EReal)
    (i : (⟨2, ![M, N]⟩ : Shape).Idx) (p : Fin m) (q : Fin N)
    (hx : ∀ k : Fin K, x (ix2 p k) = X (ix2 (i 0) k)) (hw : ∀ k : Fin K, w (ix2 k q) = W (ix2 k (i 1)))
    (hb : b (ix2 (0 : Fin 1) q) = B (ix2 (0 : Fin 1) (i 1))) :
    rowCol x w p q + b (ix2 (0 : Fin 1) q) = affine X W B i := by
  unfold affine
  rw [rowCol_of_rows X W x w (i 0) (i 1) p q hx hw, hb]

theorem combine_of_rows (A H : (⟨2, ![M, K]⟩ : Shape).Idx → EReal) (Wl Wr : (⟨2, ![K, N]⟩ : Shape).Idx → EReal)
    (B : (⟨2, ![1, N]⟩ : Shape).Idx → EReal)
    (a h : (⟨2, ![m, K]⟩ : Shape).Idx → EReal) (wl wr : (⟨2, ![K, N]⟩ : Shape).Idx → EReal) (b : (⟨2, ![1, N]⟩ : Shape).Idx → EReal)
    (i : (⟨2, ![M, N]⟩ : Shape).Idx) (p : Fin m) (q : Fin N)
    (ha : ∀ k : Fin K, a (ix2 p k) = A (ix2 (i 0) k)) (hh : ∀ k : Fin K, h (ix2 p k) = H (ix2 (i 0) k))
    (hwl : ∀ k : Fin K, wl (ix2 k q) = Wl (ix2 k (i 1))) (hwr : ∀ k : Fin K, wr (ix2 k q) = Wr (ix2 k (i 1)))
    (hb : b (ix2 (0 : Fin 1) q) = B (ix2 (0 : Fin 1) (i 1))) :
    (rowCol a wl p q + b (ix2 (0 : Fin 1) q)) + rowCol h wr p q = combine A H Wl Wr B i := by
  unfold combine
  rw [rowCol_of_rows A Wl a wl (i 0) (i 1) p q ha hwl, rowCol_of_rows H Wr h wr (i 0) (i 1) p q hh hwr, hb]

theorem combineRelu_of_rows (A H : (⟨2, ![M, K]⟩ : Shape).Idx → EReal) (Wl Wr : (⟨2, ![K, N]⟩ : Shape).Idx → EReal)
    (B : (⟨2, ![1, N]⟩ : Shape).Idx → EReal)
    (a h : (⟨2, ![m, K]⟩ : Shape).Idx → EReal) (wl wr : (⟨2, ![K, N]⟩ : Shape).Idx → EReal) (b : (⟨2, ![1, N]⟩ : Shape).Idx → EReal)
    (i : (⟨2, ![M, N]⟩ : Shape).Idx) (p : Fin m) (q : Fin N)
    (ha : ∀ k : Fin K, a (ix2 p k) = A (ix2 (i 0) k)) (hh : ∀ k : Fin K, h (ix2 p k) = H (ix2 (i 0) k))
    (hwl : ∀ k : Fin K, wl (ix2 k q) = Wl (ix2 k (i 1))) (hwr : ∀ k : Fin K, wr (ix2 k q) = Wr (ix2 k (i 1)))
    (hb : b (ix2 (0 : Fin 1) q) = B (ix2 (0 : Fin 1) (i 1))) :
    max ((rowCol a wl p q + b (ix2 (0 : Fin 1) q)) + rowCol h wr p q) (Ideal.ofBits .f32 0x00000000#32)
      = combineRelu A H Wl Wr B i := by
  unfold combineRelu
  rw [combine_of_rows A H Wl Wr B a h wl wr b i p q ha hh hwl hwr hb]

end Cert.Entries

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Region0.lean ====
/-
  The first input projection as one array.

  The region runs over ten row tiles.  At tile t the body loads rows 5000·t … 5000·t + 4999 of the node features, the
  whole transposed weight and the bias row, and stores, at row p and column q of the tile, the inner product of the
  loaded row p with column q of the weight plus the bias row's entry q.  The ten tiles cover the output exactly, so
  after the region its output array holds, at (r, q), the inner product of row r of the features with column q of the
  weight, plus the bias entry q: `Entries.affine` of the three arrays the region was entered with.
-/
import proofs.«175582_j73856257622347_1_alg».proof.Proof.Gen.KernelIdeal.Frame
import proofs.«175582_j73856257622347_1_alg».proof.Proof.LibDenseEntries
import proofs.«175582_j73856257622347_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p, column q of the tile. -/
theorem pay_apply (x0 : Vec Ideal S5000x64 .f32) (x1 : Vec Ideal S64x128 .f32) (x2 : Vec Ideal S1x128 .f32)
    (p : Fin 5000) (q : Fin 128) :
    k0_pay1 (F := Ideal) x0 x1 x2 (ix2 p q) = Entries.rowCol (M := 5000) (K := 64) (N := 128) x0 x1 p q + x2 (ix2 (0 : Fin 1) q) := by
  unfold k0_pay1
  rw [shapeCast_self, shapeCast_self]
  refine congrArg₂ (· + ·) ?_ ?_
  · exact Cert.PlainDot.matmul_zero_apply (M := 5000) (K := 64) (N := 128) dot_S5000x64_S64x128_S5000x128_1_0_0_1_n_n rfl none
      (truncf .bf16 x0 bitsLt_bf16_f32) (truncf .bf16 x1 bitsLt_bf16_f32) p q
  · exact broadcastTo_apply x2 broadcasts_S1x128_S5000x128 (ix2 p q) (ix2 (0 : Fin 1) q) (fun a => by
      match a with
      | ⟨0, _⟩ => show (0 : ℕ) = if (1 : ℕ) = 1 then 0 else _; rw [if_pos rfl]
      | ⟨1, _⟩ => show q.val = if (128 : ℕ) = 1 then 0 else q.val; rw [if_neg (by decide)])

/-- The printed index maps over the grid: the feature window and the output window move together, one row tile per
    point; the weight and the bias row stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is tile t of the projection of the arrays the region was entered with. -/
theorem flushed_eq (c : Dev nD) (t : Fin cfg0.N) :
    (dat0 V c).flushed 3 t = ((cfg0.win 3).blk t).view.read (Elt Ideal)
      (Entries.affine (M := 50000) (K := 64) (N := 128) (V c main_arg0) (V c main_v4) (V c main_v6)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x128) hz, View.ld_unit_zero (S := S1x128) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = Entries.affine (M := 50000) (K := 64) (N := 128) (V c main_arg0) (V c main_v4) (V c main_v6) (((cfg0.win 3).blk t).view.emb (ix2 p q))
  refine (pay_apply _ _ _ p q).trans ?_
  refine Entries.affine_of_rows (M := 50000) (K := 64) (N := 128) (m := 5000) (V c main_arg0) (V c main_v4) (V c main_v6) _ _ _ _ p q
    (fun k => ?_) (fun k => ?_) ?_
  · show V c main_arg0 (((cfg0.win 0).blk t).view.emb (ix2 p k)) = V c main_arg0 (ix2 ((((cfg0.win 3).blk t).view.emb (ix2 p q)) 0) k)
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 64 + 1 * k.val = k.val; omega
  · show V c main_v4 (((cfg0.win 1).blk t).view.emb (ix2 k q)) = V c main_v4 (ix2 k ((((cfg0.win 3).blk t).view.emb (ix2 p q)) 1))
    refine congrArg (V c main_v4) (funext fun a => Fin.ext ?_)
    match a with
    | ⟨0, _⟩ => show win0_1.index t (0 : Fin 2) * 64 + 1 * k.val = k.val; omega
    | ⟨1, _⟩ => show win0_1.index t (1 : Fin 2) * 128 + 1 * q.val = win0_3.index t (1 : Fin 2) * 128 + 1 * q.val; omega
  · show V c main_v6 (((cfg0.win 2).blk t).view.emb (ix2 (0 : Fin 1) q)) = V c main_v6 (ix2 (0 : Fin 1) ((((cfg0.win 3).blk t).view.emb (ix2 p q)) 1))
    refine congrArg (V c main_v6) (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the output array lies in point t's tile iff each coordinate is in the tile's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v7).slice (win0_3.rect t)).set ↔ _
  rw [View.set_slice_whole, Rect.mem_set_unit]
  exact Iff.rfl

/-- Every index of the output array lies in the tile of the point numbered by its row divided by 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, by show (i 0).val / 5000 < grid0.N; rw [N_0]; omega⟩
  obtain ⟨e0, e1, e2, e3, e4, e5, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region its output array is the projection of the arrays it was entered with. -/
theorem final (c : Dev nD) :
    (dat0 V c).arrAt 3 cfg0.N = Entries.affine (M := 50000) (K := 64) (N := 128) (V c main_arg0) (V c main_v4) (V c main_v6) :=
  (dat0 V c).arrAt_eq_of_cover 3 _ (fun t _ => flushed_eq V c t) cover

end Cert.KernelIdeal.Region0

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.LibDenseHost.lean ====
/-
  The reference's dense stages, entry by entry.

  The host computes a projection as a dot_general followed by the addition of the bias laid out as a row and repeated
  down the rows; a layer's dense step as two such products and the bias, the additions grouped as
  (neighbour product + bias) + root product; and the rectifier as the maximum with a zero splat.  Read at an entry
  these are the inner products of `Entries`: a dot_general over the extended reals is the sum over the contracted
  index, the repeated row reads the bias at the entry's column, and a vector reshaped to a row reads the same.
-/
import proofs.«175582_j73856257622347_1_alg».proof.Proof.LibDenseEntries
import proofs.«175582_j73856257622347_1_alg».proof.Proof.LibPlainDot
import proofs.«175582_j73856257622347_1_alg».proof.Proof.LibBroadcasts
import proofs.«175582_j73856257622347_1_alg».proof.Proof.LibRowVector
import Idealize.ShloMosaic.Lib.Pipeline.Value
import Idealize.ShloMosaic.Lib.ValueIdx
import Idealize.ShloMosaic.PureOps.Ideal.Laws

noncomputable section

namespace Cert.RefEntries

open Idealize.ShloMosaic Idealize.ShloMosaic.ValueIdx

variable {M K N : ℕ}

/-- A vector reshaped to a row, read at column `c`. -/
theorem row_apply (b : (⟨1, ![N]⟩ : Shape).Idx → EReal) (hc : (⟨1, ![N]⟩ : Shape).ShapeCasts ⟨2, ![1, N]⟩) (c : Fin N) :
    shapeCast ⟨2, ![1, N]⟩ b hc (ix2 (0 : Fin 1) c) = b (ix1 c) := by
  rw [Cert.RowVector.reshape_apply]
  refine congrArg b (funext fun a => ?_)
  match a with
  | ⟨0, _⟩ => rfl

/-- A host dot_general with the plain dimension record, read at an entry. -/
theorem dot_apply (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (r : Fin M) (c : Fin N) :
    Host.dotGeneral (F := Ideal) D none x w (ix2 r c) = Entries.rowCol x w r c := by
  simp only [Host.dotGeneral]
  exact Cert.PlainDot.dotGeneral_apply D hD none _ x w r c

/-- The projection stage is `Entries.affine` of its operands, the bias reshaped to a row. -/
theorem affine_eq (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (b : FVec Ideal ⟨1, ![N]⟩ .f32)
    (h0 : (⟨1, ![N]⟩ : Shape).BroadcastsInDim ⟨2, ![1, N]⟩ ![1])
    (h1 : (⟨2, ![1, N]⟩ : Shape).BroadcastsInDim ⟨2, ![M, N]⟩ ![0, 1])
    (hc : (⟨1, ![N]⟩ : Shape).ShapeCasts ⟨2, ![1, N]⟩) :
    addf (Host.dotGeneral (F := Ideal) D none x w) (broadcastInDim ⟨2, ![M, N]⟩ ![0, 1] h1 (broadcastInDim ⟨2, ![1, N]⟩ ![1] h0 b))
      = Entries.affine x w (shapeCast ⟨2, ![1, N]⟩ b hc) := by
  funext i
  obtain ⟨r, q, rfl⟩ : ∃ (r : Fin M) (q : Fin N), i = ix2 r q := ⟨i 0, i 1, eq_ix2 i⟩
  rw [Entries.affine_ix2, row_apply]
  exact congrArg₂ (· + ·) (dot_apply D hD x w r q) (Cert.Broadcasts.downRows_apply b h0 h1 r q)

/-- A layer's dense stage is `Entries.combine` of its operands, the bias reshaped to a row. -/
theorem combine_eq (D : DotDims ⟨2, ![M, K]⟩ ⟨2, ![K, N]⟩ ⟨2, ![M, N]⟩) (hD : D = DotDims.plain M K N)
    (a h : FVec Ideal ⟨2, ![M, K]⟩ .f32) (wl wr : FVec Ideal ⟨2, ![K, N]⟩ .f32) (b : FVec Ideal ⟨1, ![N]⟩ .f32)
    (h0 : (⟨1, ![N]⟩ : Shape).BroadcastsInDim ⟨2, ![1, N]⟩ ![1])
    (h1 : (⟨2, ![1, N]⟩ : Shape).BroadcastsInDim ⟨2, ![M, N]⟩ ![0, 1])
    (hc : (⟨1, ![N]⟩ : Shape).ShapeCasts ⟨2, ![1, N]⟩) :
    addf (addf (Host.dotGeneral (F := Ideal) D none a wl) (broadcastInDim ⟨2, ![M, N]⟩ ![0, 1] h1 (broadcastInDim ⟨2, ![1, N]⟩ ![1] h0 b)))
        (Host.dotGeneral (F := Ideal) D none h wr)
      = Entries.combine a h wl wr (shapeCast ⟨2, ![1, N]⟩ b hc) := by
  funext i
  obtain ⟨r, q, rfl⟩ : ∃ (r : Fin M) (q : Fin N), i = ix2 r q := ⟨i 0, i 1, eq_ix2 i⟩
  rw [Entries.combine_ix2, row_apply]
  exact congrArg₂ (· + ·)
    (congrArg₂ (· + ·) (dot_apply D hD a wl r q) (Cert.Broadcasts.downRows_apply b h0 h1 r q))
    (dot_apply D hD h wr r q)

/-- The rectified dense stage is `Entries.combineRelu`. -/
theorem combineRelu_eq (D : DotDims ⟨2, ![M, K]⟩ ⟨2, ![K, N]⟩ ⟨2, ![M, N]⟩) (hD : D = DotDims.plain M K N)
    (a h : FVec Ideal ⟨2, ![M, K]⟩ .f32) (wl wr : FVec Ideal ⟨2, ![K, N]⟩ .f32) (b : FVec Ideal ⟨1, ![N]⟩ .f32)
    (h0 : (⟨1, ![N]⟩ : Shape).BroadcastsInDim ⟨2, ![1, N]⟩ ![1])
    (h1 : (⟨2, ![1, N]⟩ : Shape).BroadcastsInDim ⟨2, ![M, N]⟩ ![0, 1])
    (hc : (⟨1, ![N]⟩ : Shape).ShapeCasts ⟨2, ![1, N]⟩)
    (hs : (⟨0, ![]⟩ : Shape).BroadcastsInDim ⟨2, ![M, N]⟩ ![]) :
    maximumf (addf (addf (Host.dotGeneral (F := Ideal) D none a wl) (broadcastInDim ⟨2, ![M, N]⟩ ![0, 1] h1 (broadcastInDim ⟨2, ![1, N]⟩ ![1] h0 b)))
        (Host.dotGeneral (F := Ideal) D none h wr))
        (broadcastInDim ⟨2, ![M, N]⟩ ![] hs (constant (F := Ideal) ⟨0, ![]⟩ .f32 0x00000000#32))
      = Entries.combineRelu a h wl wr (shapeCast ⟨2, ![1, N]⟩ b hc) := by
  rw [combine_eq D hD a h wl wr b h0 h1 hc]
  funext i
  show max (Entries.combine a h wl wr (shapeCast ⟨2, ![1, N]⟩ b hc) i)
      (broadcastInDim ⟨2, ![M, N]⟩ ![] hs (constant (F := Ideal) ⟨0, ![]⟩ .f32 0x00000000#32) i) = _
  rw [Cert.Broadcasts.splat_apply]
  rfl

end Cert.RefEntries

end
-- ==== Proof.Stages1.lean ====
/-
  The kernel's buffers up to the first projection, against the reference's stages.

  The first stretch of host operations splits the edge list into its source and destination rows, transposes the two
  input weights and lays the first bias out as a row; it writes no argument.  Region 0 then leaves, in its output
  array, the projection of the source features — which is the reference's stage for the same projection, since a
  host dot_general plus the bias repeated down the rows has the same entries.  Every other buffer tracked here is
  left as the stretch made it.
-/
import proofs.«175582_j73856257622347_1_alg».proof.Proof.Gen.KernelIdeal.Frame
import proofs.«175582_j73856257622347_1_alg».proof.Proof.Gen.ReferenceIdeal.Read
import proofs.«175582_j73856257622347_1_alg».proof.Proof.Region0
import proofs.«175582_j73856257622347_1_alg».proof.Proof.LibDenseHost
import Idealize.ShloMosaic.Lib.StableHlo.Run

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first host stretch -/

theorem w1_arg0 : W1 m ρ c (Proc.devRef .tc main_arg0)
    = (m ((c : Thread nD τ).loc main_arg0)) := by
  show StableHlo.after hostOps0 (W0 m ρ c) (Proc.devRef .tc main_arg0) = _
  after_results <;> rfl

theorem w1_arg1 : W1 m ρ c (Proc.devRef .tc main_arg1)
    = (m ((c : Thread nD τ).loc main_arg1)) := by
  show StableHlo.after hostOps0 (W0 m ρ c) (Proc.devRef .tc main_arg1) = _
  after_results <;> rfl

theorem w1_arg6 : W1 m ρ c (Proc.devRef .tc main_arg6)
    = (m ((c : Thread nD τ).loc main_arg6)) := by
  show StableHlo.after hostOps0 (W0 m ρ c) (Proc.devRef .tc main_arg6) = _
  after_results <;> rfl

theorem w1_arg7 : W1 m ρ c (Proc.devRef .tc main_arg7)
    = (m ((c : Thread nD τ).loc main_arg7)) := by
  show StableHlo.after hostOps0 (W0 m ρ c) (Proc.devRef .tc main_arg7) = _
  after_results <;> rfl

theorem w1_arg8 : W1 m ρ c (Proc.devRef .tc main_arg8)
    = (m ((c : Thread nD τ).loc main_arg8)) := by
  show StableHlo.after hostOps0 (W0 m ρ c) (Proc.devRef .tc main_arg8) = _
  after_results <;> rfl

theorem w1_arg9 : W1 m ρ c (Proc.devRef .tc main_arg9)
    = (m ((c : Thread nD τ).loc main_arg9)) := by
  show StableHlo.after hostOps0 (W0 m ρ c) (Proc.devRef .tc main_arg9) = _
  after_results <;> rfl

theorem w1_v1 : W1 m ρ c (Proc.devRef .tc main_v1)
    = (val_main_v1 (F := Ideal) (m ((c : Thread nD τ).loc main_arg2))) := by
  show StableHlo.after hostOps0 (W0 m ρ c) (Proc.devRef .tc main_v1) = _
  after_results <;> rfl

theorem w1_v3 : W1 m ρ c (Proc.devRef .tc main_v3)
    = (val_main_v3 (F := Ideal) (m ((c : Thread nD τ).loc main_arg2))) := by
  show StableHlo.after hostOps0 (W0 m ρ c) (Proc.devRef .tc main_v3) = _
  after_results <;> rfl

theorem w1_v4 : W1 m ρ c (Proc.devRef .tc main_v4)
    = (val_main_v4 (F := Ideal) (m ((c : Thread nD τ).loc main_arg3))) := by
  show StableHlo.after hostOps0 (W0 m ρ c) (Proc.devRef .tc main_v4) = _
  after_results <;> rfl

theorem w1_v5 : W1 m ρ c (Proc.devRef .tc main_v5)
    = (val_main_v9 (F := Ideal) (m ((c : Thread nD τ).loc main_arg5))) := by
  show StableHlo.after hostOps0 (W0 m ρ c) (Proc.devRef .tc main_v5) = _
  after_results <;> rfl

theorem w1_v6 : W1 m ρ c (Proc.devRef .tc main_v6)
    = (shapeCast S1x128 (m ((c : Thread nD τ).loc main_arg4)) shapeCasts_S128_S1x128) := by
  show StableHlo.after hostOps0 (W0 m ρ c) (Proc.devRef .tc main_v6) = _
  after_results <;> rfl

/-! ## After region 0 -/

theorem w2_v7 : W2 m ρ c (Proc.devRef .tc main_v7)
    = (val_main_v8 (F := Ideal) (m ((c : Thread nD τ).loc main_arg0)) (m ((c : Thread nD τ).loc main_arg3)) (m ((c : Thread nD τ).loc main_arg4))) := by
  refine (W2_arr m ρ c 3).trans ?_
  rw [Region0.final (V1 m ρ) c]
  show Entries.affine (M := 50000) (K := 64) (N := 128) (W1 m ρ c (Proc.devRef .tc main_arg0)) (W1 m ρ c (Proc.devRef .tc main_v4)) (W1 m ρ c (Proc.devRef .tc main_v6)) = _
  rw [w1_arg0 m ρ c, w1_v4 m ρ c, w1_v6 m ρ c]
  unfold val_main_v8 val_main_v5 val_main_v7 val_main_v6
  exact (Cert.RefEntries.affine_eq (M := 50000) (K := 64) (N := 128) Cert.ReferenceIdeal.dot_S50000x64_S64x128_S50000x128_1_0_0_1_n_n rfl
    (m ((c : Thread nD τ).loc main_arg0)) (val_main_v4 (F := Ideal) (m ((c : Thread nD τ).loc main_arg3))) (m ((c : Thread nD τ).loc main_arg4)) _ _ _).symm

theorem w2_arg1 : W2 m ρ c (Proc.devRef .tc main_arg1)
    = (m ((c : Thread nD τ).loc main_arg1)) :=
  (W2_of_ne m ρ c main_arg1 (by decide)).trans (w1_arg1 m ρ c)

theorem w2_arg6 : W2 m ρ c (Proc.devRef .tc main_arg6)
    = (m ((c : Thread nD τ).loc main_arg6)) :=
  (W2_of_ne m ρ c main_arg6 (by decide)).trans (w1_arg6 m ρ c)

theorem w2_arg7 : W2 m ρ c (Proc.devRef .tc main_arg7)
    = (m ((c : Thread nD τ).loc main_arg7)) :=
  (W2_of_ne m ρ c main_arg7 (by decide)).trans (w1_arg7 m ρ c)

theorem w2_arg8 : W2 m ρ c (Proc.devRef .tc main_arg8)
    = (m ((c : Thread nD τ).loc main_arg8)) :=
  (W2_of_ne m ρ c main_arg8 (by decide)).trans (w1_arg8 m ρ c)

theorem w2_arg9 : W2 m ρ c (Proc.devRef .tc main_arg9)
    = (m ((c : Thread nD τ).loc main_arg9)) :=
  (W2_of_ne m ρ c main_arg9 (by decide)).trans (w1_arg9 m ρ c)

theorem w2_v1 : W2 m ρ c (Proc.devRef .tc main_v1)
    = (val_main_v1 (F := Ideal) (m ((c : Thread nD τ).loc main_arg2))) :=
  (W2_of_ne m ρ c main_v1 (by decide)).trans (w1_v1 m ρ c)

theorem w2_v3 : W2 m ρ c (Proc.devRef .tc main_v3)
    = (val_main_v3 (F := Ideal) (m ((c : Thread nD τ).loc main_arg2))) :=
  (W2_of_ne m ρ c main_v3 (by decide)).trans (w1_v3 m ρ c)

theorem w2_v5 : W2 m ρ c (Proc.devRef .tc main_v5)
    = (val_main_v9 (F := Ideal) (m ((c : Thread nD τ).loc main_arg5))) :=
  (W2_of_ne m ρ c main_v5 (by decide)).trans (w1_v5 m ρ c)

end Cert.KernelIdeal.Stages

end
-- ==== Proof.Region1.lean ====
/-
  The second input projection as one array.

  The region runs over ten row tiles.  At tile t the body loads rows 5000·t … 5000·t + 4999 of the target-side node features, the
  whole transposed weight and the bias row, and stores, at row p and column q of the tile, the inner product of the
  loaded row p with column q of the weight plus the bias row's entry q.  The ten tiles cover the output exactly, so
  after the region its output array holds, at (r, q), the inner product of row r of the features with column q of the
  weight, plus the bias entry q: `Entries.affine` of the three arrays the region was entered with.
-/
import proofs.«175582_j73856257622347_1_alg».proof.Proof.Gen.KernelIdeal.Frame
import proofs.«175582_j73856257622347_1_alg».proof.Proof.LibDenseEntries
import proofs.«175582_j73856257622347_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p, column q of the tile. -/
theorem pay_apply (x0 : Vec Ideal S5000x64 .f32) (x1 : Vec Ideal S64x128 .f32) (x2 : Vec Ideal S1x128 .f32)
    (p : Fin 5000) (q : Fin 128) :
    k1_pay1 (F := Ideal) x0 x1 x2 (ix2 p q) = Entries.rowCol (M := 5000) (K := 64) (N := 128) x0 x1 p q + x2 (ix2 (0 : Fin 1) q) := by
  unfold k1_pay1
  rw [shapeCast_self, shapeCast_self]
  refine congrArg₂ (· + ·) ?_ ?_
  · exact Cert.PlainDot.matmul_zero_apply (M := 5000) (K := 64) (N := 128) dot_S5000x64_S64x128_S5000x128_1_0_0_1_n_n rfl none
      (truncf .bf16 x0 bitsLt_bf16_f32) (truncf .bf16 x1 bitsLt_bf16_f32) p q
  · exact broadcastTo_apply x2 broadcasts_S1x128_S5000x128 (ix2 p q) (ix2 (0 : Fin 1) q) (fun a => by
      match a with
      | ⟨0, _⟩ => show (0 : ℕ) = if (1 : ℕ) = 1 then 0 else _; rw [if_pos rfl]
      | ⟨1, _⟩ => show q.val = if (128 : ℕ) = 1 then 0 else q.val; rw [if_neg (by decide)])

/-- The printed index maps over the grid: the feature window and the output window move together, one row tile per
    point; the weight and the bias row stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is tile t of the projection of the arrays the region was entered with. -/
theorem flushed_eq (c : Dev nD) (t : Fin cfg1.N) :
    (dat1 V c).flushed 3 t = ((cfg1.win 3).blk t).view.read (Elt Ideal)
      (Entries.affine (M := 50000) (K := 64) (N := 128) (V c main_arg1) (V c main_v5) (V c main_v8)) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x128) hz, View.ld_unit_zero (S := S1x128) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
    = Entries.affine (M := 50000) (K := 64) (N := 128) (V c main_arg1) (V c main_v5) (V c main_v8) (((cfg1.win 3).blk t).view.emb (ix2 p q))
  refine (pay_apply _ _ _ p q).trans ?_
  refine Entries.affine_of_rows (M := 50000) (K := 64) (N := 128) (m := 5000) (V c main_arg1) (V c main_v5) (V c main_v8) _ _ _ _ p q
    (fun k => ?_) (fun k => ?_) ?_
  · show V c main_arg1 (((cfg1.win 0).blk t).view.emb (ix2 p k)) = V c main_arg1 (ix2 ((((cfg1.win 3).blk t).view.emb (ix2 p q)) 0) k)
    refine congrArg (V c main_arg1) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  · show V c main_v5 (((cfg1.win 1).blk t).view.emb (ix2 k q)) = V c main_v5 (ix2 k ((((cfg1.win 3).blk t).view.emb (ix2 p q)) 1))
    refine congrArg (V c main_v5) (funext fun a => Fin.ext ?_)
    match a with
    | ⟨0, _⟩ => show win1_1.index t (0 : Fin 2) * 64 + 1 * k.val = k.val; omega
    | ⟨1, _⟩ => show win1_1.index t (1 : Fin 2) * 128 + 1 * q.val = win1_3.index t (1 : Fin 2) * 128 + 1 * q.val; omega
  · show V c main_v8 (((cfg1.win 2).blk t).view.emb (ix2 (0 : Fin 1) q)) = V c main_v8 (ix2 (0 : Fin 1) ((((cfg1.win 3).blk t).view.emb (ix2 p q)) 1))
    refine congrArg (V c main_v8) (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- An index of the output array lies in point t's tile iff each coordinate is in the tile's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v9).slice (win1_3.rect t)).set ↔ _
  rw [View.set_slice_whole, Rect.mem_set_unit]
  exact Iff.rfl

/-- Every index of the output array lies in the tile of the point numbered by its row divided by 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  let t : Fin cfg1.N := ⟨(i 0).val / 5000, by show (i 0).val / 5000 < grid1.N; rw [N_1]; omega⟩
  obtain ⟨e0, e1, e2, e3, e4, e5, e6, e7⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the region its output array is the projection of the arrays it was entered with. -/
theorem final (c : Dev nD) :
    (dat1 V c).arrAt 3 cfg1.N = Entries.affine (M := 50000) (K := 64) (N := 128) (V c main_arg1) (V c main_v5) (V c main_v8) :=
  (dat1 V c).arrAt_eq_of_cover 3 _ (fun t _ => flushed_eq V c t) cover

end Cert.KernelIdeal.Region1

end
-- ==== Proof.Stages2.lean ====
/-
  The kernel's buffers up to the second projection.

  The second host stretch only lays the second bias out as a row.  Region 1 leaves, in its output array, the
  projection of the target-side features: the reference's stage for it.
-/
import proofs.«175582_j73856257622347_1_alg».proof.Proof.Stages1
import proofs.«175582_j73856257622347_1_alg».proof.Proof.Region1
import Idealize.ShloMosaic.Lib.StableHlo.Run

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the second host stretch -/

theorem w3_v8 : W3 m ρ c (Proc.devRef .tc main_v8)
    = (shapeCast S1x128 (m ((c : Thread nD τ).loc main_arg6)) shapeCasts_S128_S1x128) := by
  show StableHlo.after hostOps1 (W2 m ρ c) (Proc.devRef .tc main_v8) = _
  after_results
  rw [w2_arg6 m ρ c]
  all_goals rfl

theorem w3_arg1 : W3 m ρ c (Proc.devRef .tc main_arg1)
    = (m ((c : Thread nD τ).loc main_arg1)) := by
  show StableHlo.after hostOps1 (W2 m ρ c) (Proc.devRef .tc main_arg1) = _
  after_results
  exact w2_arg1 m ρ c

theorem w3_v5 : W3 m ρ c (Proc.devRef .tc main_v5)
    = (val_main_v9 (F := Ideal) (m ((c : Thread nD τ).loc main_arg5))) := by
  show StableHlo.after hostOps1 (W2 m ρ c) (Proc.devRef .tc main_v5) = _
  after_results
  exact w2_v5 m ρ c

theorem w3_v7 : W3 m ρ c (Proc.devRef .tc main_v7)
    = (val_main_v8 (F := Ideal) (m ((c : Thread nD τ).loc main_arg0)) (m ((c : Thread nD τ).loc main_arg3)) (m ((c : Thread nD τ).loc main_arg4))) := by
  show StableHlo.after hostOps1 (W2 m ρ c) (Proc.devRef .tc main_v7) = _
  after_results
  exact w2_v7 m ρ c

theorem w3_arg7 : W3 m ρ c (Proc.devRef .tc main_arg7)
    = (m ((c : Thread nD τ).loc main_arg7)) := by
  show StableHlo.after hostOps1 (W2 m ρ c) (Proc.devRef .tc main_arg7) = _
  after_results
  exact w2_arg7 m ρ c

theorem w3_arg8 : W3 m ρ c (Proc.devRef .tc main_arg8)
    = (m ((c : Thread nD τ).loc main_arg8)) := by
  show StableHlo.after hostOps1 (W2 m ρ c) (Proc.devRef .tc main_arg8) = _
  after_results
  exact w2_arg8 m ρ c

theorem w3_arg9 : W3 m ρ c (Proc.devRef .tc main_arg9)
    = (m ((c : Thread nD τ).loc main_arg9)) := by
  show StableHlo.after hostOps1 (W2 m ρ c) (Proc.devRef .tc main_arg9) = _
  after_results
  exact w2_arg9 m ρ c

theorem w3_v1 : W3 m ρ c (Proc.devRef .tc main_v1)
    = (val_main_v1 (F := Ideal) (m ((c : Thread nD τ).loc main_arg2))) := by
  show StableHlo.after hostOps1 (W2 m ρ c) (Proc.devRef .tc main_v1) = _
  after_results
  exact w2_v1 m ρ c

theorem w3_v3 : W3 m ρ c (Proc.devRef .tc main_v3)
    = (val_main_v3 (F := Ideal) (m ((c : Thread nD τ).loc main_arg2))) := by
  show StableHlo.after hostOps1 (W2 m ρ c) (Proc.devRef .tc main_v3) = _
  after_results
  exact w2_v3 m ρ c

/-! ## After region 1 -/

theorem w4_v9 : W4 m ρ c (Proc.devRef .tc main_v9)
    = (val_main_v13 (F := Ideal) (m ((c : Thread nD τ).loc main_arg1)) (m ((c : Thread nD τ).loc main_arg5)) (m ((c : Thread nD τ).loc main_arg6))) := by
  refine (W4_arr m ρ c 3).trans ?_
  rw [Region1.final (V3 m ρ) c]
  show Entries.affine (M := 50000) (K := 64) (N := 128) (W3 m ρ c (Proc.devRef .tc main_arg1)) (W3 m ρ c (Proc.devRef .tc main_v5)) (W3 m ρ c (Proc.devRef .tc main_v8)) = _
  rw [w3_arg1 m ρ c, w3_v5 m ρ c, w3_v8 m ρ c]
  unfold val_main_v13 val_main_v10 val_main_v12 val_main_v11
  exact (Cert.RefEntries.affine_eq (M := 50000) (K := 64) (N := 128) Cert.ReferenceIdeal.dot_S50000x64_S64x128_S50000x128_1_0_0_1_n_n rfl
    (m ((c : Thread nD τ).loc main_arg1)) (val_main_v9 (F := Ideal) (m ((c : Thread nD τ).loc main_arg5))) (m ((c : Thread nD τ).loc main_arg6)) _ _ _).symm

theorem w4_v7 : W4 m ρ c (Proc.devRef .tc main_v7)
    = (val_main_v8 (F := Ideal) (m ((c : Thread nD τ).loc main_arg0)) (m ((c : Thread nD τ).loc main_arg3)) (m ((c : Thread nD τ).loc main_arg4))) :=
  (W4_of_ne m ρ c main_v7 (by decide)).trans (w3_v7 m ρ c)

theorem w4_arg7 : W4 m ρ c (Proc.devRef .tc main_arg7)
    = (m ((c : Thread nD τ).loc main_arg7)) :=
  (W4_of_ne m ρ c main_arg7 (by decide)).trans (w3_arg7 m ρ c)

theorem w4_arg8 : W4 m ρ c (Proc.devRef .tc main_arg8)
    = (m ((c : Thread nD τ).loc main_arg8)) :=
  (W4_of_ne m ρ c main_arg8 (by decide)).trans (w3_arg8 m ρ c)

theorem w4_arg9 : W4 m ρ c (Proc.devRef .tc main_arg9)
    = (m ((c : Thread nD τ).loc main_arg9)) :=
  (W4_of_ne m ρ c main_arg9 (by decide)).trans (w3_arg9 m ρ c)

theorem w4_v1 : W4 m ρ c (Proc.devRef .tc main_v1)
    = (val_main_v1 (F := Ideal) (m ((c : Thread nD τ).loc main_arg2))) :=
  (W4_of_ne m ρ c main_v1 (by decide)).trans (w3_v1 m ρ c)

theorem w4_v3 : W4 m ρ c (Proc.devRef .tc main_v3)
    = (val_main_v3 (F := Ideal) (m ((c : Thread nD τ).loc main_arg2))) :=
  (W4_of_ne m ρ c main_v3 (by decide)).trans (w3_v3 m ρ c)

end Cert.KernelIdeal.Stages

end
-- ==== Proof.Region2.lean ====
/-
  The first layer's dense step as one array.

  The region runs over twenty row tiles.  At tile t the body loads rows 5000·t … 5000·t + 4999 of the aggregated
  neighbour features and of the current node features, the two whole transposed weights and the bias row, and stores,
  at row p and column q of the tile, (neighbour row p · column q of the first weight + bias entry q) + (node row p ·
  column q of the second weight), clipped below at zero.  The twenty tiles cover the output exactly, so after the region its output array
  is `Entries.combineRelu` of the five arrays the region was entered with.
-/
import proofs.«175582_j73856257622347_1_alg».proof.Proof.Gen.KernelIdeal.Frame
import proofs.«175582_j73856257622347_1_alg».proof.Proof.LibDenseEntries
import proofs.«175582_j73856257622347_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p, column q of the tile. -/
theorem pay_apply (x0 x1 : Vec Ideal S5000x128 .f32) (x2 x4 : Vec Ideal S128x128 .f32) (x3 : Vec Ideal S1x128 .f32)
    (p : Fin 5000) (q : Fin 128) :
    k2_pay1 (F := Ideal) x0 x1 x2 x4 x3 (ix2 p q)
      = max ((Entries.rowCol (M := 5000) (K := 128) (N := 128) x0 x2 p q + x3 (ix2 (0 : Fin 1) q)) + Entries.rowCol (M := 5000) (K := 128) (N := 128) x1 x4 p q) (Ideal.ofBits .f32 0x00000000#32) := by
  unfold k2_pay1
  simp only [shapeCast_self]
  refine congrArg₂ max ?_ rfl
  refine congrArg₂ (· + ·) (congrArg₂ (· + ·) ?_ ?_) ?_
  · exact Cert.PlainDot.matmul_zero_apply (M := 5000) (K := 128) (N := 128) dot_S5000x128_S128x128_S5000x128_1_0_0_1_n_n rfl none
      (truncf .bf16 x0 bitsLt_bf16_f32) (truncf .bf16 x2 bitsLt_bf16_f32) p q
  · exact broadcastTo_apply x3 broadcasts_S1x128_S5000x128 (ix2 p q) (ix2 (0 : Fin 1) q) (fun a => by
      match a with
      | ⟨0, _⟩ => show (0 : ℕ) = if (1 : ℕ) = 1 then 0 else _; rw [if_pos rfl]
      | ⟨1, _⟩ => show q.val = if (128 : ℕ) = 1 then 0 else q.val; rw [if_neg (by decide)])
  · exact Cert.PlainDot.matmul_zero_apply (M := 5000) (K := 128) (N := 128) dot_S5000x128_S128x128_S5000x128_1_0_0_1_n_n rfl none
      (truncf .bf16 x1 bitsLt_bf16_f32) (truncf .bf16 x4 bitsLt_bf16_f32) p q

/-- The printed index maps over the grid: the two feature windows and the output window move together, one row tile
    per point; the weights and the bias row stay at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 1600000 in
/-- What point t writes back is tile t of the dense step of the arrays the region was entered with. -/
theorem flushed_eq (c : Dev nD) (t : Fin cfg2.N) :
    (dat2 V c).flushed 5 t = ((cfg2.win 5).blk t).view.read (Elt Ideal)
      (Entries.combineRelu (M := 100000) (K := 128) (N := 128) (V c main_v31) (V c main_v10) (V c main_v34) (V c main_v37) (V c main_v40)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 4 t) (iblk2 V c 3 t) (ix2 p q)
    = Entries.combineRelu (M := 100000) (K := 128) (N := 128) (V c main_v31) (V c main_v10) (V c main_v34) (V c main_v37) (V c main_v40) (((cfg2.win 5).blk t).view.emb (ix2 p q))
  refine (pay_apply _ _ _ _ _ p q).trans ?_
  refine Entries.combineRelu_of_rows (M := 100000) (K := 128) (N := 128) (m := 5000) (V c main_v31) (V c main_v10) (V c main_v34) (V c main_v37) (V c main_v40) _ _ _ _ _ _ p q
    (fun k => ?_) (fun k => ?_) (fun k => ?_) (fun k => ?_) ?_
  · show V c main_v31 (((cfg2.win 0).blk t).view.emb (ix2 p k)) = V c main_v31 (ix2 ((((cfg2.win 5).blk t).view.emb (ix2 p q)) 0) k)
    refine congrArg (V c main_v31) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  · show V c main_v10 (((cfg2.win 1).blk t).view.emb (ix2 p k)) = V c main_v10 (ix2 ((((cfg2.win 5).blk t).view.emb (ix2 p q)) 0) k)
    refine congrArg (V c main_v10) (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  · show V c main_v34 (((cfg2.win 2).blk t).view.emb (ix2 k q)) = V c main_v34 (ix2 k ((((cfg2.win 5).blk t).view.emb (ix2 p q)) 1))
    refine congrArg (V c main_v34) (funext fun a => Fin.ext ?_)
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  · show V c main_v37 (((cfg2.win 4).blk t).view.emb (ix2 k q)) = V c main_v37 (ix2 k ((((cfg2.win 5).blk t).view.emb (ix2 p q)) 1))
    refine congrArg (V c main_v37) (funext fun a => Fin.ext ?_)
    match a with
    | ⟨0, _⟩ => show win2_4.index t (0 : Fin 2) * 128 + 1 * k.val = k.val; omega
    | ⟨1, _⟩ => show win2_4.index t (1 : Fin 2) * 128 + 1 * q.val = win2_5.index t (1 : Fin 2) * 128 + 1 * q.val; omega
  · show V c main_v40 (((cfg2.win 3).blk t).view.emb (ix2 (0 : Fin 1) q)) = V c main_v40 (ix2 (0 : Fin 1) ((((cfg2.win 5).blk t).view.emb (ix2 p q)) 1))
    refine congrArg (V c main_v40) (funext fun a => Fin.ext ?_)
    match a with
    | ⟨0, _⟩ => show win2_3.index t (0 : Fin 2) * 1 + 1 * 0 = 0; omega
    | ⟨1, _⟩ => show win2_3.index t (1 : Fin 2) * 128 + 1 * q.val = win2_5.index t (1 : Fin 2) * 128 + 1 * q.val; omega

/-- An index of the output array lies in point t's tile iff each coordinate is in the tile's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v41).slice (win2_5.rect t)).set ↔ _
  rw [View.set_slice_whole, Rect.mem_set_unit]
  exact Iff.rfl

/-- Every index of the output array lies in the tile of the point numbered by its row divided by 5000. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  let t : Fin cfg2.N := ⟨(i 0).val / 5000, by show (i 0).val / 5000 < grid2.N; rw [N_2]; omega⟩
  obtain ⟨e0, e1, e2, e3, e4, e5, e6, e7, e8, e9, e10, e11⟩ := idx_facts t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the region its output array is the dense step of the arrays it was entered with. -/
theorem final (c : Dev nD) :
    (dat2 V c).arrAt 5 cfg2.N
      = Entries.combineRelu (M := 100000) (K := 128) (N := 128) (V c main_v31) (V c main_v10) (V c main_v34) (V c main_v37) (V c main_v40) :=
  (dat2 V c).arrAt_eq_of_cover 5 _ (fun t _ => flushed_eq V c t) cover

end Cert.KernelIdeal.Region2

end
-- ==== Proof.Stages3.lean ====
/-
  The kernel's buffers through the first layer.

  The third host stretch joins the two projections into the node features, counts each node's incoming edges and
  inverts the count (clipped below at one), gathers the features at the edges' sources, adds them up at the edges'
  destinations, scales by the inverse count, and slices out the first layer's transposed weights and its bias row.
  These are operation for operation the reference's stages over the same arguments.  Region 2 then leaves the first
  layer's rectified dense step in its output array: the reference's stage for it.
-/
import proofs.«175582_j73856257622347_1_alg».proof.Proof.Stages2
import proofs.«175582_j73856257622347_1_alg».proof.Proof.Region2
import Idealize.ShloMosaic.Lib.StableHlo.Run

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the third host stretch -/

theorem w5_v10 : W5 m ρ c (Proc.devRef .tc main_v10)
    = (val_main_v14 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  show StableHlo.after hostOps2 (W4 m ρ c) (Proc.devRef .tc main_v10) = _
  after_results_simp
  rw [w4_v7 m ρ c, w4_v9 m ρ c]
  all_goals rfl

theorem w5_v19 : W5 m ρ c (Proc.devRef .tc main_v19)
    = (val_main_v23 (F := Ideal) (m ((c : Thread nD τ).loc main_arg2))) := by
  show StableHlo.after hostOps2 (W4 m ρ c) (Proc.devRef .tc main_v19) = _
  after_results_simp
  rw [w4_v3 m ρ c]
  all_goals rfl

theorem w5_v31 : W5 m ρ c (Proc.devRef .tc main_v31)
    = (val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show StableHlo.after hostOps2 (W4 m ρ c) (Proc.devRef .tc main_v31) = _
  after_results_simp
  rw [w4_v7 m ρ c, w4_v9 m ρ c, w4_v1 m ρ c, w4_v3 m ρ c]
  all_goals rfl

theorem w5_v34 : W5 m ρ c (Proc.devRef .tc main_v34)
    = (val_main_v38 (F := Ideal) (m ((c : Thread nD τ).loc main_arg7))) := by
  show StableHlo.after hostOps2 (W4 m ρ c) (Proc.devRef .tc main_v34) = _
  after_results_simp
  rw [w4_arg7 m ρ c]
  all_goals rfl

theorem w5_v37 : W5 m ρ c (Proc.devRef .tc main_v37)
    = (val_main_v47 (F := Ideal) (m ((c : Thread nD τ).loc main_arg9))) := by
  show StableHlo.after hostOps2 (W4 m ρ c) (Proc.devRef .tc main_v37) = _
  after_results_simp
  rw [w4_arg9 m ρ c]
  all_goals rfl

theorem w5_v40 : W5 m ρ c (Proc.devRef .tc main_v40)
    = (shapeCast S1x128 (val_main_v41 (F := Ideal) (m ((c : Thread nD τ).loc main_arg8))) shapeCasts_S128_S1x128) := by
  show StableHlo.after hostOps2 (W4 m ρ c) (Proc.devRef .tc main_v40) = _
  after_results_simp
  rw [w4_arg8 m ρ c]
  all_goals rfl

theorem w5_v1 : W5 m ρ c (Proc.devRef .tc main_v1)
    = (val_main_v1 (F := Ideal) (m ((c : Thread nD τ).loc main_arg2))) := by
  show StableHlo.after hostOps2 (W4 m ρ c) (Proc.devRef .tc main_v1) = _
  after_results_simp
  exact w4_v1 m ρ c

theorem w5_v3 : W5 m ρ c (Proc.devRef .tc main_v3)
    = (val_main_v3 (F := Ideal) (m ((c : Thread nD τ).loc main_arg2))) := by
  show StableHlo.after hostOps2 (W4 m ρ c) (Proc.devRef .tc main_v3) = _
  after_results_simp
  exact w4_v3 m ρ c

theorem w5_arg7 : W5 m ρ c (Proc.devRef .tc main_arg7)
    = (m ((c : Thread nD τ).loc main_arg7)) := by
  show StableHlo.after hostOps2 (W4 m ρ c) (Proc.devRef .tc main_arg7) = _
  after_results_simp
  exact w4_arg7 m ρ c

theorem w5_arg8 : W5 m ρ c (Proc.devRef .tc main_arg8)
    = (m ((c : Thread nD τ).loc main_arg8)) := by
  show StableHlo.after hostOps2 (W4 m ρ c) (Proc.devRef .tc main_arg8) = _
  after_results_simp
  exact w4_arg8 m ρ c

theorem w5_arg9 : W5 m ρ c (Proc.devRef .tc main_arg9)
    = (m ((c : Thread nD τ).loc main_arg9)) := by
  show StableHlo.after hostOps2 (W4 m ρ c) (Proc.devRef .tc main_arg9) = _
  after_results_simp
  exact w4_arg9 m ρ c

/-! ## After region 2 -/

theorem w6_v41 : W6 m ρ c (Proc.devRef .tc main_v41)
    = (val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W6_arr m ρ c 5).trans ?_
  rw [Region2.final (V5 m ρ) c]
  show Entries.combineRelu (M := 100000) (K := 128) (N := 128) (W5 m ρ c (Proc.devRef .tc main_v31)) (W5 m ρ c (Proc.devRef .tc main_v10)) (W5 m ρ c (Proc.devRef .tc main_v34)) (W5 m ρ c (Proc.devRef .tc main_v37)) (W5 m ρ c (Proc.devRef .tc main_v40)) = _
  rw [w5_v31 m ρ c, w5_v10 m ρ c, w5_v34 m ρ c, w5_v37 m ρ c, w5_v40 m ρ c]
  unfold val_main_v50 val_main_v49 val_main_v44 val_main_v39 val_main_v43 val_main_v42 val_main_v48 val_main_call0_v0 val_main_call0_cst
  exact (Cert.RefEntries.combineRelu_eq (M := 100000) (K := 128) (N := 128) Cert.ReferenceIdeal.dot_S100000x128_S128x128_S100000x128_1_0_0_1_n_n rfl
    (val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (val_main_v14 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (val_main_v38 (F := Ideal) (m ((c : Thread nD τ).loc main_arg7))) (val_main_v47 (F := Ideal) (m ((c : Thread nD τ).loc main_arg9))) (val_main_v41 (F := Ideal) (m ((c : Thread nD τ).loc main_arg8))) _ _ _ _).symm

theorem w6_v1 : W6 m ρ c (Proc.devRef .tc main_v1)
    = (val_main_v1 (F := Ideal) (m ((c : Thread nD τ).loc main_arg2))) :=
  (W6_of_ne m ρ c main_v1 (by decide)).trans (w5_v1 m ρ c)

theorem w6_v3 : W6 m ρ c (Proc.devRef .tc main_v3)
    = (val_main_v3 (F := Ideal) (m ((c : Thread nD τ).loc main_arg2))) :=
  (W6_of_ne m ρ c main_v3 (by decide)).trans (w5_v3 m ρ c)

theorem w6_v19 : W6 m ρ c (Proc.devRef .tc main_v19)
    = (val_main_v23 (F := Ideal) (m ((c : Thread nD τ).loc main_arg2))) :=
  (W6_of_ne m ρ c main_v19 (by decide)).trans (w5_v19 m ρ c)

theorem w6_arg7 : W6 m ρ c (Proc.devRef .tc main_arg7)
    = (m ((c : Thread nD τ).loc main_arg7)) :=
  (W6_of_ne m ρ c main_arg7 (by decide)).trans (w5_arg7 m ρ c)

theorem w6_arg8 : W6 m ρ c (Proc.devRef .tc main_arg8)
    = (m ((c : Thread nD τ).loc main_arg8)) :=
  (W6_of_ne m ρ c main_arg8 (by decide)).trans (w5_arg8 m ρ c)

theorem w6_arg9 : W6 m ρ c (Proc.devRef .tc main_arg9)
    = (m ((c : Thread nD τ).loc main_arg9)) :=
  (W6_of_ne m ρ c main_arg9 (by decide)).trans (w5_arg9 m ρ c)

end Cert.KernelIdeal.Stages

end
-- ==== Proof.Region3.lean ====
/-
  The second layer's dense step as one array.

  The region runs over twenty row tiles.  At tile t the body loads rows 5000·t … 5000·t + 4999 of the aggregated
  neighbour features and of the current node features, the two whole transposed weights and the bias row, and stores,
  at row p and column q of the tile, (neighbour row p · column q of the first weight + bias entry q) + (node row p ·
  column q of the second weight), clipped below at zero.  The twenty tiles cover the output exactly, so after the region its output array
  is `Entries.combineRelu` of the five arrays the region was entered with.
-/
import proofs.«175582_j73856257622347_1_alg».proof.Proof.Gen.KernelIdeal.Frame
import proofs.«175582_j73856257622347_1_alg».proof.Proof.LibDenseEntries
import proofs.«175582_j73856257622347_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p, column q of the tile. -/
theorem pay_apply (x0 x1 : Vec Ideal S5000x128 .f32) (x2 x4 : Vec Ideal S128x128 .f32) (x3 : Vec Ideal S1x128 .f32)
    (p : Fin 5000) (q : Fin 128) :
    k3_pay1 (F := Ideal) x0 x1 x2 x4 x3 (ix2 p q)
      = max ((Entries.rowCol (M := 5000) (K := 128) (N := 128) x0 x2 p q + x3 (ix2 (0 : Fin 1) q)) + Entries.rowCol (M := 5000) (K := 128) (N := 128) x1 x4 p q) (Ideal.ofBits .f32 0x00000000#32) := by
  unfold k3_pay1
  simp only [shapeCast_self]
  refine congrArg₂ max ?_ rfl
  refine congrArg₂ (· + ·) (congrArg₂ (· + ·) ?_ ?_) ?_
  · exact Cert.PlainDot.matmul_zero_apply (M := 5000) (K := 128) (N := 128) dot_S5000x128_S128x128_S5000x128_1_0_0_1_n_n rfl none
      (truncf .bf16 x0 bitsLt_bf16_f32) (truncf .bf16 x2 bitsLt_bf16_f32) p q
  · exact broadcastTo_apply x3 broadcasts_S1x128_S5000x128 (ix2 p q) (ix2 (0 : Fin 1) q) (fun a => by
      match a with
      | ⟨0, _⟩ => show (0 : ℕ) = if (1 : ℕ) = 1 then 0 else _; rw [if_pos rfl]
      | ⟨1, _⟩ => show q.val = if (128 : ℕ) = 1 then 0 else q.val; rw [if_neg (by decide)])
  · exact Cert.PlainDot.matmul_zero_apply (M := 5000) (K := 128) (N := 128) dot_S5000x128_S128x128_S5000x128_1_0_0_1_n_n rfl none
      (truncf .bf16 x1 bitsLt_bf16_f32) (truncf .bf16 x4 bitsLt_bf16_f32) p q

/-- The printed index maps over the grid: the two feature windows and the output window move together, one row tile
    per point; the weights and the bias row stay at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 1600000 in
/-- What point t writes back is tile t of the dense step of the arrays the region was entered with. -/
theorem flushed_eq (c : Dev nD) (t : Fin cfg3.N) :
    (dat3 V c).flushed 5 t = ((cfg3.win 5).blk t).view.read (Elt Ideal)
      (Entries.combineRelu (M := 100000) (K := 128) (N := 128) (V c main_v53) (V c main_v41) (V c main_v56) (V c main_v59) (V c main_v62)) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (iblk3 V c 2 t) (iblk3 V c 4 t) (iblk3 V c 3 t) (ix2 p q)
    = Entries.combineRelu (M := 100000) (K := 128) (N := 128) (V c main_v53) (V c main_v41) (V c main_v56) (V c main_v59) (V c main_v62) (((cfg3.win 5).blk t).view.emb (ix2 p q))
  refine (pay_apply _ _ _ _ _ p q).trans ?_
  refine Entries.combineRelu_of_rows (M := 100000) (K := 128) (N := 128) (m := 5000) (V c main_v53) (V c main_v41) (V c main_v56) (V c main_v59) (V c main_v62) _ _ _ _ _ _ p q
    (fun k => ?_) (fun k => ?_) (fun k => ?_) (fun k => ?_) ?_
  · show V c main_v53 (((cfg3.win 0).blk t).view.emb (ix2 p k)) = V c main_v53 (ix2 ((((cfg3.win 5).blk t).view.emb (ix2 p q)) 0) k)
    refine congrArg (V c main_v53) (funext fun a => Fin.ext ?_)
    match a with
    | ⟨0, _⟩ => show win3_0.index t (0 : Fin 2) * 5000 + 1 * p.val = win3_5.index t (0 : Fin 2) * 5000 + 1 * p.val; omega
    | ⟨1, _⟩ => show win3_0.index t (1 : Fin 2) * 128 + 1 * k.val = k.val; omega
  · show V c main_v41 (((cfg3.win 1).blk t).view.emb (ix2 p k)) = V c main_v41 (ix2 ((((cfg3.win 5).blk t).view.emb (ix2 p q)) 0) k)
    refine congrArg (V c main_v41) (funext fun a => Fin.ext ?_)
    match a with
    | ⟨0, _⟩ => show win3_1.index t (0 : Fin 2) * 5000 + 1 * p.val = win3_5.index t (0 : Fin 2) * 5000 + 1 * p.val; omega
    | ⟨1, _⟩ => show win3_1.index t (1 : Fin 2) * 128 + 1 * k.val = k.val; omega
  · show V c main_v56 (((cfg3.win 2).blk t).view.emb (ix2 k q)) = V c main_v56 (ix2 k ((((cfg3.win 5).blk t).view.emb (ix2 p q)) 1))
    refine congrArg (V c main_v56) (funext fun a => Fin.ext ?_)
    match a with
    | ⟨0, _⟩ => show win3_2.index t (0 : Fin 2) * 128 + 1 * k.val = k.val; omega
    | ⟨1, _⟩ => show win3_2.index t (1 : Fin 2) * 128 + 1 * q.val = win3_5.index t (1 : Fin 2) * 128 + 1 * q.val; omega
  · show V c main_v59 (((cfg3.win 4).blk t).view.emb (ix2 k q)) = V c main_v59 (ix2 k ((((cfg3.win 5).blk t).view.emb (ix2 p q)) 1))
    refine congrArg (V c main_v59) (funext fun a => Fin.ext ?_)
    match a with
    | ⟨0, _⟩ => show win3_4.index t (0 : Fin 2) * 128 + 1 * k.val = k.val; omega
    | ⟨1, _⟩ => show win3_4.index t (1 : Fin 2) * 128 + 1 * q.val = win3_5.index t (1 : Fin 2) * 128 + 1 * q.val; omega
  · show V c main_v62 (((cfg3.win 3).blk t).view.emb (ix2 (0 : Fin 1) q)) = V c main_v62 (ix2 (0 : Fin 1) ((((cfg3.win 5).blk t).view.emb (ix2 p q)) 1))
    refine congrArg (V c main_v62) (funext fun a => Fin.ext ?_)
    match a with
    | ⟨0, _⟩ => show win3_3.index t (0 : Fin 2) * 1 + 1 * 0 = 0; omega
    | ⟨1, _⟩ => show win3_3.index t (1 : Fin 2) * 128 + 1 * q.val = win3_5.index t (1 : Fin 2) * 128 + 1 * q.val; omega

/-- An index of the output array lies in point t's tile iff each coordinate is in the tile's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v63).slice (win3_5.rect t)).set ↔ _
  rw [View.set_slice_whole, Rect.mem_set_unit]
  exact Iff.rfl

/-- Every index of the output array lies in the tile of the point numbered by its row divided by 5000. -/
theorem cover (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  let t : Fin cfg3.N := ⟨(i 0).val / 5000, by show (i 0).val / 5000 < grid3.N; rw [N_3]; omega⟩
  obtain ⟨e0, e1, e2, e3, e4, e5, e6, e7, e8, e9, e10, e11⟩ := idx_facts t
  have ht : t.val = (i 0).val / 5000 := rfl
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- After the region its output array is the dense step of the arrays it was entered with. -/
theorem final (c : Dev nD) :
    (dat3 V c).arrAt 5 cfg3.N
      = Entries.combineRelu (M := 100000) (K := 128) (N := 128) (V c main_v53) (V c main_v41) (V c main_v56) (V c main_v59) (V c main_v62) :=
  (dat3 V c).arrAt_eq_of_cover 5 _ (fun t _ => flushed_eq V c t) cover

end Cert.KernelIdeal.Region3

end
-- ==== Proof.Stages4.lean ====
/-
  The kernel's buffers through the second layer.

  The fourth host stretch gathers the first layer's output at the edges' sources, adds it up at their destinations,
  scales by the inverse in-degree, and slices out the second layer's weights and bias: the reference's stages again.
  Region 3 leaves the second layer's rectified dense step.
-/
import proofs.«175582_j73856257622347_1_alg».proof.Proof.Stages3
import proofs.«175582_j73856257622347_1_alg».proof.Proof.Region3
import Idealize.ShloMosaic.Lib.StableHlo.Run

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the fourth host stretch -/

theorem w7_v53 : W7 m ρ c (Proc.devRef .tc main_v53)
    = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps3 (W6 m ρ c) (Proc.devRef .tc main_v53) = _
  after_results_simp
  rw [w6_v41 m ρ c, w6_v1 m ρ c, w6_v3 m ρ c, w6_v19 m ρ c]
  all_goals rfl

theorem w7_v56 : W7 m ρ c (Proc.devRef .tc main_v56)
    = (val_main_v65 (F := Ideal) (m ((c : Thread nD τ).loc main_arg7))) := by
  show StableHlo.after hostOps3 (W6 m ρ c) (Proc.devRef .tc main_v56) = _
  after_results_simp
  rw [w6_arg7 m ρ c]
  all_goals rfl

theorem w7_v59 : W7 m ρ c (Proc.devRef .tc main_v59)
    = (val_main_v74 (F := Ideal) (m ((c : Thread nD τ).loc main_arg9))) := by
  show StableHlo.after hostOps3 (W6 m ρ c) (Proc.devRef .tc main_v59) = _
  after_results_simp
  rw [w6_arg9 m ρ c]
  all_goals rfl

theorem w7_v62 : W7 m ρ c (Proc.devRef .tc main_v62)
    = (shapeCast S1x128 (val_main_v68 (F := Ideal) (m ((c : Thread nD τ).loc main_arg8))) shapeCasts_S128_S1x128) := by
  show StableHlo.after hostOps3 (W6 m ρ c) (Proc.devRef .tc main_v62) = _
  after_results_simp
  rw [w6_arg8 m ρ c]
  all_goals rfl

theorem w7_v41 : W7 m ρ c (Proc.devRef .tc main_v41)
    = (val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps3 (W6 m ρ c) (Proc.devRef .tc main_v41) = _
  after_results_simp
  exact w6_v41 m ρ c

theorem w7_v1 : W7 m ρ c (Proc.devRef .tc main_v1)
    = (val_main_v1 (F := Ideal) (m ((c : Thread nD τ).loc main_arg2))) := by
  show StableHlo.after hostOps3 (W6 m ρ c) (Proc.devRef .tc main_v1) = _
  after_results_simp
  exact w6_v1 m ρ c

theorem w7_v3 : W7 m ρ c (Proc.devRef .tc main_v3)
    = (val_main_v3 (F := Ideal) (m ((c : Thread nD τ).loc main_arg2))) := by
  show StableHlo.after hostOps3 (W6 m ρ c) (Proc.devRef .tc main_v3) = _
  after_results_simp
  exact w6_v3 m ρ c

theorem w7_v19 : W7 m ρ c (Proc.devRef .tc main_v19)
    = (val_main_v23 (F := Ideal) (m ((c : Thread nD τ).loc main_arg2))) := by
  show StableHlo.after hostOps3 (W6 m ρ c) (Proc.devRef .tc main_v19) = _
  after_results_simp
  exact w6_v19 m ρ c

theorem w7_arg7 : W7 m ρ c (Proc.devRef .tc main_arg7)
    = (m ((c : Thread nD τ).loc main_arg7)) := by
  show StableHlo.after hostOps3 (W6 m ρ c) (Proc.devRef .tc main_arg7) = _
  after_results_simp
  exact w6_arg7 m ρ c

theorem w7_arg8 : W7 m ρ c (Proc.devRef .tc main_arg8)
    = (m ((c : Thread nD τ).loc main_arg8)) := by
  show StableHlo.after hostOps3 (W6 m ρ c) (Proc.devRef .tc main_arg8) = _
  after_results_simp
  exact w6_arg8 m ρ c

theorem w7_arg9 : W7 m ρ c (Proc.devRef .tc main_arg9)
    = (m ((c : Thread nD τ).loc main_arg9)) := by
  show StableHlo.after hostOps3 (W6 m ρ c) (Proc.devRef .tc main_arg9) = _
  after_results_simp
  exact w6_arg9 m ρ c

/-! ## After region 3 -/

theorem w8_v63 : W8 m ρ c (Proc.devRef .tc main_v63)
    = (val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W8_arr m ρ c 5).trans ?_
  rw [Region3.final (V7 m ρ) c]
  show Entries.combineRelu (M := 100000) (K := 128) (N := 128) (W7 m ρ c (Proc.devRef .tc main_v53)) (W7 m ρ c (Proc.devRef .tc main_v41)) (W7 m ρ c (Proc.devRef .tc main_v56)) (W7 m ρ c (Proc.devRef .tc main_v59)) (W7 m ρ c (Proc.devRef .tc main_v62)) = _
  rw [w7_v53 m ρ c, w7_v41 m ρ c, w7_v56 m ρ c, w7_v59 m ρ c, w7_v62 m ρ c]
  unfold val_main_v77 val_main_v76 val_main_v71 val_main_v66 val_main_v70 val_main_v69 val_main_v75 val_main_call1_v0 val_main_call1_cst
  exact (Cert.RefEntries.combineRelu_eq (M := 100000) (K := 128) (N := 128) Cert.ReferenceIdeal.dot_S100000x128_S128x128_S100000x128_1_0_0_1_n_n rfl
    (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (val_main_v65 (F := Ideal) (m ((c : Thread nD τ).loc main_arg7))) (val_main_v74 (F := Ideal) (m ((c : Thread nD τ).loc main_arg9))) (val_main_v68 (F := Ideal) (m ((c : Thread nD τ).loc main_arg8))) _ _ _ _).symm

theorem w8_v1 : W8 m ρ c (Proc.devRef .tc main_v1)
    = (val_main_v1 (F := Ideal) (m ((c : Thread nD τ).loc main_arg2))) :=
  (W8_of_ne m ρ c main_v1 (by decide)).trans (w7_v1 m ρ c)

theorem w8_v3 : W8 m ρ c (Proc.devRef .tc main_v3)
    = (val_main_v3 (F := Ideal) (m ((c : Thread nD τ).loc main_arg2))) :=
  (W8_of_ne m ρ c main_v3 (by decide)).trans (w7_v3 m ρ c)

theorem w8_v19 : W8 m ρ c (Proc.devRef .tc main_v19)
    = (val_main_v23 (F := Ideal) (m ((c : Thread nD τ).loc main_arg2))) :=
  (W8_of_ne m ρ c main_v19 (by decide)).trans (w7_v19 m ρ c)

theorem w8_arg7 : W8 m ρ c (Proc.devRef .tc main_arg7)
    = (m ((c : Thread nD τ).loc main_arg7)) :=
  (W8_of_ne m ρ c main_arg7 (by decide)).trans (w7_arg7 m ρ c)

theorem w8_arg8 : W8 m ρ c (Proc.devRef .tc main_arg8)
    = (m ((c : Thread nD τ).loc main_arg8)) :=
  (W8_of_ne m ρ c main_arg8 (by decide)).trans (w7_arg8 m ρ c)

theorem w8_arg9 : W8 m ρ c (Proc.devRef .tc main_arg9)
    = (m ((c : Thread nD τ).loc main_arg9)) :=
  (W8_of_ne m ρ c main_arg9 (by decide)).trans (w7_arg9 m ρ c)

end Cert.KernelIdeal.Stages

end
-- ==== Proof.Region4.lean ====
/-
  The third layer's dense step as one array.

  The region runs over twenty row tiles.  At tile t the body loads rows 5000·t … 5000·t + 4999 of the aggregated
  neighbour features and of the current node features, the two whole transposed weights and the bias row, and stores,
  at row p and column q of the tile, (neighbour row p · column q of the first weight + bias entry q) + (node row p ·
  column q of the second weight).  The twenty tiles cover the output exactly, so after the region its output array
  is `Entries.combine` of the five arrays the region was entered with.
-/
import proofs.«175582_j73856257622347_1_alg».proof.Proof.Gen.KernelIdeal.Frame
import proofs.«175582_j73856257622347_1_alg».proof.Proof.LibDenseEntries
import proofs.«175582_j73856257622347_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p, column q of the tile. -/
theorem pay_apply (x0 x1 : Vec Ideal S5000x128 .f32) (x2 x4 : Vec Ideal S128x128 .f32) (x3 : Vec Ideal S1x128 .f32)
    (p : Fin 5000) (q : Fin 128) :
    k4_pay1 (F := Ideal) x0 x1 x2 x4 x3 (ix2 p q)
      = (Entries.rowCol (M := 5000) (K := 128) (N := 128) x0 x2 p q + x3 (ix2 (0 : Fin 1) q)) + Entries.rowCol (M := 5000) (K := 128) (N := 128) x1 x4 p q := by
  unfold k4_pay1
  simp only [shapeCast_self]
  refine congrArg₂ (· + ·) (congrArg₂ (· + ·) ?_ ?_) ?_
  · exact Cert.PlainDot.matmul_zero_apply (M := 5000) (K := 128) (N := 128) dot_S5000x128_S128x128_S5000x128_1_0_0_1_n_n rfl none
      (truncf .bf16 x0 bitsLt_bf16_f32) (truncf .bf16 x2 bitsLt_bf16_f32) p q
  · exact broadcastTo_apply x3 broadcasts_S1x128_S5000x128 (ix2 p q) (ix2 (0 : Fin 1) q) (fun a => by
      match a with
      | ⟨0, _⟩ => show (0 : ℕ) = if (1 : ℕ) = 1 then 0 else _; rw [if_pos rfl]
      | ⟨1, _⟩ => show q.val = if (128 : ℕ) = 1 then 0 else q.val; rw [if_neg (by decide)])
  · exact Cert.PlainDot.matmul_zero_apply (M := 5000) (K := 128) (N := 128) dot_S5000x128_S128x128_S5000x128_1_0_0_1_n_n rfl none
      (truncf .bf16 x1 bitsLt_bf16_f32) (truncf .bf16 x4 bitsLt_bf16_f32) p q

/-- The printed index maps over the grid: the two feature windows and the output window move together, one row tile
    per point; the weights and the bias row stay at block (0, 0). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

set_option maxHeartbeats 1600000 in
/-- What point t writes back is tile t of the dense step of the arrays the region was entered with. -/
theorem flushed_eq (c : Dev nD) (t : Fin cfg4.N) :
    (dat4 V c).flushed 5 t = ((cfg4.win 5).blk t).view.read (Elt Ideal)
      (Entries.combine (M := 100000) (K := 128) (N := 128) (V c main_v75) (V c main_v63) (V c main_v78) (V c main_v81) (V c main_v84)) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts t
  funext j
  obtain ⟨p, q, rfl⟩ : ∃ (p : Fin 5000) (q : Fin 128), j = ix2 p q := ⟨j 0, j 1, eq_ix2 j⟩
  show k4_pay1 (F := Ideal) (iblk4 V c 0 t) (iblk4 V c 1 t) (iblk4 V c 2 t) (iblk4 V c 4 t) (iblk4 V c 3 t) (ix2 p q)
    = Entries.combine (M := 100000) (K := 128) (N := 128) (V c main_v75) (V c main_v63) (V c main_v78) (V c main_v81) (V c main_v84) (((cfg4.win 5).blk t).view.emb (ix2 p q))
  refine (pay_apply _ _ _ _ _ p q).trans ?_
  refine Entries.combine_of_rows (M := 100000) (K := 128) (N := 128) (m := 5000) (V c main_v75) (V c main_v63) (V c main_v78) (V c main_v81) (V c main_v84) _ _ _ _ _ _ p q
    (fun k => ?_) (fun k => ?_) (fun k => ?_) (fun k => ?_) ?_
  · show V c main_v75 (((cfg4.win 0).blk t).view.emb (ix2 p k)) = V c main_v75 (ix2 ((((cfg4.win 5).blk t).view.emb (ix2 p q)) 0) k)
    refine congrArg (V c main_v75) (funext fun a => Fin.ext ?_)
    match a with
    | ⟨0, _⟩ => show win4_0.index t (0 : Fin 2) * 5000 + 1 * p.val = win4_5.index t (0 : Fin 2) * 5000 + 1 * p.val; omega
    | ⟨1, _⟩ => show win4_0.index t (1 : Fin 2) * 128 + 1 * k.val = k.val; omega
  · show V c main_v63 (((cfg4.win 1).blk t).view.emb (ix2 p k)) = V c main_v63 (ix2 ((((cfg4.win 5).blk t).view.emb (ix2 p q)) 0) k)
    refine congrArg (V c main_v63) (funext fun a => Fin.ext ?_)
    match a with
    | ⟨0, _⟩ => show win4_1.index t (0 : Fin 2) * 5000 + 1 * p.val = win4_5.index t (0 : Fin 2) * 5000 + 1 * p.val; omega
    | ⟨1, _⟩ => show win4_1.index t (1 : Fin 2) * 128 + 1 * k.val = k.val; omega
  · show V c main_v78 (((cfg4.win 2).blk t).view.emb (ix2 k q)) = V c main_v78 (ix2 k ((((cfg4.win 5).blk t).view.emb (ix2 p q)) 1))
    refine congrArg (V c main_v78) (funext fun a => Fin.ext ?_)
    match a with
    | ⟨0, _⟩ => show win4_2.index t (0 : Fin 2) * 128 + 1 * k.val = k.val; omega
    | ⟨1, _⟩ => show win4_2.index t (1 : Fin 2) * 128 + 1 * q.val = win4_5.index t (1 : Fin 2) * 128 + 1 * q.val; omega
  · show V c main_v81 (((cfg4.win 4).blk t).view.emb (ix2 k q)) = V c main_v81 (ix2 k ((((cfg4.win 5).blk t).view.emb (ix2 p q)) 1))
    refine congrArg (V c main_v81) (funext fun a => Fin.ext ?_)
    match a with
    | ⟨0, _⟩ => show win4_4.index t (0 : Fin 2) * 128 + 1 * k.val = k.val; omega
    | ⟨1, _⟩ => show win4_4.index t (1 : Fin 2) * 128 + 1 * q.val = win4_5.index t (1 : Fin 2) * 128 + 1 * q.val; omega
  · show V c main_v84 (((cfg4.win 3).blk t).view.emb (ix2 (0 : Fin 1) q)) = V c main_v84 (ix2 (0 : Fin 1) ((((cfg4.win 5).blk t).view.emb (ix2 p q)) 1))
    refine congrArg (V c main_v84) (funext fun a => Fin.ext ?_)
    match a with
    | ⟨0, _⟩ => show win4_3.index t (0 : Fin 2) * 1 + 1 * 0 = 0; omega
    | ⟨1, _⟩ => show win4_3.index t (1 : Fin 2) * 128 + 1 * q.val = win4_5.index t (1 : Fin 2) * 128 + 1 * q.val; omega

/-- An index of the output array lies in point t's tile iff each coordinate is in the tile's range on its axis. -/
theorem mem_blk (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v85).slice (win4_5.rect t)).set ↔ _
  rw [View.set_slice_whole, Rect.mem_set_unit]
  exact Iff.rfl

/-- Every index of the output array lies in the tile of the point numbered by its row divided by 5000. -/
theorem cover (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  let t : Fin cfg4.N := ⟨(i 0).val / 5000, by show (i 0).val / 5000 < grid4.N; rw [N_4]; omega⟩
  obtain ⟨e0, e1, e2, e3, e4, e5, e6, e7, e8, e9, e10, e11⟩ := idx_facts t
  have ht : t.val = (i 0).val / 5000 := rfl
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- After the region its output array is the dense step of the arrays it was entered with. -/
theorem final (c : Dev nD) :
    (dat4 V c).arrAt 5 cfg4.N
      = Entries.combine (M := 100000) (K := 128) (N := 128) (V c main_v75) (V c main_v63) (V c main_v78) (V c main_v81) (V c main_v84) :=
  (dat4 V c).arrAt_eq_of_cover 5 _ (fun t _ => flushed_eq V c t) cover

end Cert.KernelIdeal.Region4

end
-- ==== Proof.Stages5.lean ====
/-
  The kernel's buffers through the third layer: the result.

  The fifth host stretch aggregates the second layer's output over the edges as before and slices out the third
  layer's weights and bias.  Region 4 leaves the third layer's dense step, not rectified, in the result buffer: the
  reference's result stage over the same arguments.
-/
import proofs.«175582_j73856257622347_1_alg».proof.Proof.Stages4
import proofs.«175582_j73856257622347_1_alg».proof.Proof.Region4
import Idealize.ShloMosaic.Lib.StableHlo.Run

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the fifth host stretch -/

theorem w9_v75 : W9 m ρ c (Proc.devRef .tc main_v75)
    = (val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps4 (W8 m ρ c) (Proc.devRef .tc main_v75) = _
  after_results_simp
  rw [w8_v63 m ρ c, w8_v1 m ρ c, w8_v3 m ρ c, w8_v19 m ρ c]
  all_goals rfl

theorem w9_v78 : W9 m ρ c (Proc.devRef .tc main_v78)
    = (val_main_v92 (F := Ideal) (m ((c : Thread nD τ).loc main_arg7))) := by
  show StableHlo.after hostOps4 (W8 m ρ c) (Proc.devRef .tc main_v78) = _
  after_results_simp
  rw [w8_arg7 m ρ c]
  all_goals rfl

theorem w9_v81 : W9 m ρ c (Proc.devRef .tc main_v81)
    = (val_main_v101 (F := Ideal) (m ((c : Thread nD τ).loc main_arg9))) := by
  show StableHlo.after hostOps4 (W8 m ρ c) (Proc.devRef .tc main_v81) = _
  after_results_simp
  rw [w8_arg9 m ρ c]
  all_goals rfl

theorem w9_v84 : W9 m ρ c (Proc.devRef .tc main_v84)
    = (shapeCast S1x128 (val_main_v95 (F := Ideal) (m ((c : Thread nD τ).loc main_arg8))) shapeCasts_S128_S1x128) := by
  show StableHlo.after hostOps4 (W8 m ρ c) (Proc.devRef .tc main_v84) = _
  after_results_simp
  rw [w8_arg8 m ρ c]
  all_goals rfl

theorem w9_v63 : W9 m ρ c (Proc.devRef .tc main_v63)
    = (val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps4 (W8 m ρ c) (Proc.devRef .tc main_v63) = _
  after_results_simp
  exact w8_v63 m ρ c

/-! ## After region 4 -/

theorem w10_v85 : W10 m ρ c (Proc.devRef .tc main_v85)
    = (val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W10_arr m ρ c 5).trans ?_
  rw [Region4.final (V9 m ρ) c]
  show Entries.combine (M := 100000) (K := 128) (N := 128) (W9 m ρ c (Proc.devRef .tc main_v75)) (W9 m ρ c (Proc.devRef .tc main_v63)) (W9 m ρ c (Proc.devRef .tc main_v78)) (W9 m ρ c (Proc.devRef .tc main_v81)) (W9 m ρ c (Proc.devRef .tc main_v84)) = _
  rw [w9_v75 m ρ c, w9_v63 m ρ c, w9_v78 m ρ c, w9_v81 m ρ c, w9_v84 m ρ c]
  unfold val_main_v103 val_main_v98 val_main_v93 val_main_v97 val_main_v96 val_main_v102
  exact (Cert.RefEntries.combine_eq (M := 100000) (K := 128) (N := 128) Cert.ReferenceIdeal.dot_S100000x128_S128x128_S100000x128_1_0_0_1_n_n rfl
    (val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (val_main_v92 (F := Ideal) (m ((c : Thread nD τ).loc main_arg7))) (val_main_v101 (F := Ideal) (m ((c : Thread nD τ).loc main_arg9))) (val_main_v95 (F := Ideal) (m ((c : Thread nD τ).loc main_arg8))) _ _ _).symm

end Cert.KernelIdeal.Stages

end
-- ==== Proof.lean ====
/-
  The certificate of the message-passing network: a tiled on-chip kernel program against its plain array reference.

  Both programs compute, from node features, an edge list and the weights, three rounds of mean aggregation over the
  edges followed by a dense step.  The two input projections and the three dense steps run on chip in the kernel
  program, tiled over rows; everything else (the edge bookkeeping, gather, scatter-add, the inverse in-degree) is the
  same host arithmetic in both.  Over the extended reals a tile of a matrix product is the matching rows of the whole
  product, the change of float format before the product is the identity, and the on-chip bias row and the host's
  repeated bias read the same entry; the additions are grouped the same way on both sides.  So the kernel's result
  buffer and the reference's hold the same array, entry by entry, with no appeal to finiteness.

  The three frames are the generated ones (the reference's from its generated run); the idealization rewrote nothing,
  so there is nothing to preserve beyond the text itself.
-/
import proofs.«175582_j73856257622347_1_alg».proof.Defs
import proofs.«175582_j73856257622347_1_alg».proof.Proof.Gen.Kernel
import proofs.«175582_j73856257622347_1_alg».proof.Proof.Gen.Kernel.Skeleton
import proofs.«175582_j73856257622347_1_alg».proof.Proof.Gen.Kernel.Launch
import proofs.«175582_j73856257622347_1_alg».proof.Proof.Gen.Kernel.Points
import proofs.«175582_j73856257622347_1_alg».proof.Proof.Gen.Kernel.Frame
import proofs.«175582_j73856257622347_1_alg».proof.Proof.Gen.KernelIdeal
import proofs.«175582_j73856257622347_1_alg».proof.Proof.Gen.KernelIdeal.Skeleton
import proofs.«175582_j73856257622347_1_alg».proof.Proof.Gen.KernelIdeal.Launch
import proofs.«175582_j73856257622347_1_alg».proof.Proof.Gen.KernelIdeal.Points
import proofs.«175582_j73856257622347_1_alg».proof.Proof.Gen.KernelIdeal.Frame
import proofs.«175582_j73856257622347_1_alg».proof.Proof.Gen.ReferenceIdeal
import proofs.«175582_j73856257622347_1_alg».proof.Proof.Gen.ReferenceIdeal.Run
import proofs.«175582_j73856257622347_1_alg».proof.Proof.Gen.ReferenceIdeal.Read
import proofs.«175582_j73856257622347_1_alg».proof.Proof.Gen.Pre_finite_inputs
import proofs.«175582_j73856257622347_1_alg».proof.Proof.KernelRun
import proofs.«175582_j73856257622347_1_alg».proof.Proof.Stages5
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end, and the reference's result — its last stage as a
    function of the arguments — is what the kernel's fold leaves in its result buffer. -/
theorem algebraic : Cert.algebraic_KernelIdeal_ReferenceIdeal := by
  intro m ρ m' ρ' _ hagree
  refine ⟨fun c => Cert.KernelIdeal.Gen.W10 m ρ c (Proc.devRef .tc Cert.KernelIdeal.main_v85), Cert.KernelIdeal.Run.run_main m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v103_eq, h0, h1, h2, h3, h4, h5, h6, h7, h8, h9]
  exact (Cert.KernelIdeal.Stages.w10_v85 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
